-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x16 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg4
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x512 : Shape := ⟨2, ![5000, 512]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩

abbrev nBuf : Space → Nat
  | .hbm => 62
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S1x256, .f32⟩
  | .hbm, ⟨46, _⟩ => ⟨S50000x16, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x16, .f32⟩
  | .hbm, ⟨56, _⟩ => ⟨S_, .f32⟩
  | .hbm, ⟨57, _⟩ => ⟨S50000x16, .f32⟩
  | .hbm, ⟨58, _⟩ => ⟨S850000x1, .i32⟩
  | .hbm, ⟨59, _⟩ => ⟨S50000x16, .f32⟩
  | .hbm, ⟨60, _⟩ => ⟨S1x16, .f32⟩
  | .hbm, ⟨61, _⟩ => ⟨S50000x16, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x512_S5000x512_0_0 : ∀ a, (![0, 0] : Fin 2 → Nat) a + S5000x512.size a ≤ S5000x512.size a
  h_S5000x512 : 0 < S5000x512.numel
  inb_S512x256_S512x256_0_0 : ∀ a, (![0, 0] : Fin 2 → Nat) a + S512x256.size a ≤ S512x256.size a
  h_S512x256 : 0 < S512x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x16_S256x16_0_0 : ∀ a, (![0, 0] : Fin 2 → Nat) a + S256x16.size a ≤ S256x16.size a
  h_S256x16 : 0 < S256x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  scatter_S50000_S850000x1_S850000_n_0_0_1_wf : ScatterDims.WF S50000 S850000x1 S850000 [] [0] [0] 1
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x16_S5000x16_1_0_0_1_n_n_wf : DotDims.WF S5000x256 S256x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .i1⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x16, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x16, .f32⟩
  | .hbm, ⟨86, _⟩ => ⟨S850000x1, .f32⟩
  | .hbm, ⟨87, _⟩ => ⟨S850000x16, .f32⟩
  | .hbm, ⟨88, _⟩ => ⟨S850000x16, .f32⟩
  | .hbm, ⟨89, _⟩ => ⟨S_, .f32⟩
  | .hbm, ⟨90, _⟩ => ⟨S50000x16, .f32⟩
  | .hbm, ⟨91, _⟩ => ⟨S850000x1, .i32⟩
  | .hbm, ⟨92, _⟩ => ⟨S50000x16, .f32⟩
  | .hbm, ⟨93, _⟩ => ⟨S1x16, .f32⟩
  | .hbm, ⟨94, _⟩ => ⟨S50000x16, .f32⟩
  | .hbm, ⟨95, _⟩ => ⟨S50000x16, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x16, .f32⟩
  | .hbm, ⟨103, _⟩ => ⟨S50000x16, .f32⟩
  | .hbm, ⟨104, _⟩ => ⟨S50000x16, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x16, .f32⟩
  | .hbm, ⟨109, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x16_S50000x16_1_0_0_1_n_n_wf : DotDims.WF S50000x256 S256x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.GcnSpec.lean ====
/-
  The row-wise scalar functions of a two-layer graph convolution with a softmax head, on the extended reals.

  `leakyS` is the leaky rectifier with slope 0.2 (the f32 word 0x3E4CCCCD) in the spelling both programs use: the
  number itself where it is at least zero, 0.2 times it elsewhere. `smRow f q` is entry `q` of the softmax of a row
  `f` of 16 logits in the numerically guarded spelling: subtract the row's maximum (taken from −∞), exponentiate,
  divide by the sum of the exponentials.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.GcnSpec

open Idealize.ShloMosaic

/-- The leaky rectifier with slope 0.2. -/
def leakyS (x : EReal) : EReal :=
  Scalar.select (Ideal.cmp .oge x (Ideal.ofBits .f32 0x00000000#32)) x (Ideal.ofBits .f32 0x3E4CCCCD#32 * x)

/-- The largest entry of a row of logits, never below −∞. -/
def rowTop {n : ℕ} (f : Fin n → EReal) : EReal :=
  max (Ideal.ofBits .f32 0xFF800000#32) ((Finset.univ : Finset (Fin n)).fold max (Ideal.ofBits .f32 0xFF800000#32) f)

/-- Entry `q` of the softmax of the row `f`. -/
def smRow {n : ℕ} (f : Fin n → EReal) (q : Fin n) : EReal :=
  Ideal.div (Ideal.exp (f q - rowTop f)) (∑ q' : Fin n, Ideal.exp (f q' - rowTop f))

end Cert.GcnSpec

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.KernelBodies.lean ====
/-
  The three kernel bodies of the graph convolution, each read at one entry of its output block at the exact
  instance.

  The first body multiplies a block of 5000 rows of features by the whole weight matrix and scales row `p` by
  that node's normalization factor. The second scales the aggregated rows, adds the bias row, applies the leaky
  rectifier, multiplies by the second weight matrix and scales again. The third scales, adds the bias row and
  takes the softmax of each row of 16 logits. Entry `(p, q)` of each result reads row `p` of the row-indexed
  operands only.
-/
import proofs.«131746_j44220983280095_2_alg».proof.Proof.Gen.KernelIdeal.Skeleton
import proofs.«131746_j44220983280095_2_alg».proof.Proof.GcnSpec
import proofs.«131746_j44220983280095_2_alg».proof.Proof.LibPlainMatmul
import proofs.«131746_j44220983280095_2_alg».proof.Proof.LibKeepdims
import proofs.«131746_j44220983280095_2_alg».proof.Proof.LibRowMax
import proofs.«131746_j44220983280095_2_alg».proof.Proof.LibBlockLayout
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GcnSpec

/-- The first body at `(p, q)`: the inner product of feature row `p` with weight column `q`, times the
    node's factor. -/
theorem pay0_at (x0 : FVec Ideal S5000x512 .f32) (x1 : FVec Ideal S512x256 .f32) (x3 : FVec Ideal S5000x1 .f32)
    (p : Fin 5000) (q : Fin 256) :
    k0_pay1 (F := Ideal) x0 x1 x3 (ix2 p q)
      = (∑ k : Fin 512, x0 (ix2 p k) * x1 (ix2 k q)) * x3 (ix2 p (0 : Fin 1)) := by
  show FloatOps.matmul (F := Ideal) (DotDims.plain 5000 512 256) (some .fp32) x0 x1 (constant (F := Ideal) S5000x256 .f32 0x00000000#32) (ix2 p q)
      * broadcastTo S5000x256 (shapeCast S5000x1 x3 shapeCasts_S5000x1_S5000x1) broadcasts_S5000x1_S5000x256 (ix2 p q) = _
  rw [Cert.LibKeepdims.broadcastTo_a1_ab_apply, shapeCast_self, Cert.LibPlainMatmul.matmul_zero_apply]

/-- The rectified pre-activation of the second body at `(p, k)`. -/
def act1 (v0 : FVec Ideal S5000x1 .f32) (v2 : FVec Ideal S5000x256 .f32) (v6 : FVec Ideal S1x256 .f32)
    (p : Fin 5000) (k : Fin 256) : EReal :=
  leakyS (v2 (ix2 p k) * v0 (ix2 p (0 : Fin 1)) + v6 (ix2 (0 : Fin 1) k))

/-- The second body at `(p, q)`: the rectified, biased, scaled row `p` against weight column `q`, times the
    node's factor. -/
theorem pay1_at (v0 : FVec Ideal S5000x1 .f32) (v2 : FVec Ideal S5000x256 .f32) (v6 : FVec Ideal S1x256 .f32)
    (v15 : FVec Ideal S256x16 .f32) (p : Fin 5000) (q : Fin 16) :
    k1_pay1 (F := Ideal) v0 v2 v6 v15 (ix2 p q)
      = (∑ k : Fin 256, act1 v0 v2 v6 p k * v15 (ix2 k q)) * v0 (ix2 p (0 : Fin 1)) := by
  unfold k1_pay1
  simp only [shapeCast_self]
  rw [mulf_apply, Cert.LibKeepdims.broadcastTo_a1_ab_apply]
  refine congrArg (· * v0 (ix2 p (0 : Fin 1))) ?_
  refine (Cert.LibPlainMatmul.matmul_zero_apply (a := 5000) (n := 256) (b := 16) (some .fp32) _ v15 p q).trans ?_
  refine Finset.sum_congr rfl fun k _ => ?_
  refine congrArg (· * v15 (ix2 k q)) ?_
  rw [select_apply, cmpf_apply, mulf_apply, addf_apply, mulf_apply, broadcast_apply, broadcast_apply,
    Cert.LibKeepdims.broadcastTo_a1_ab_apply, Cert.LibBlockLayout.rowBroadcast_at]
  rfl

/-- The logits of the third body at `(p, q)`. -/
def logit2 (v0 : FVec Ideal S5000x16 .f32) (v2 : FVec Ideal S5000x1 .f32) (v6 : FVec Ideal S1x16 .f32)
    (p : Fin 5000) (q : Fin 16) : EReal :=
  v0 (ix2 p q) * v2 (ix2 p (0 : Fin 1)) + v6 (ix2 (0 : Fin 1) q)

theorem logit2_at (v0 : FVec Ideal S5000x16 .f32) (v2 : FVec Ideal S5000x1 .f32) (v6 : FVec Ideal S1x16 .f32)
    (p : Fin 5000) (q : Fin 16) :
    addf (F := Ideal) (mulf (F := Ideal) (shapeCast S5000x16 v0 shapeCasts_S5000x16_S5000x16)
        (broadcastTo S5000x16 (shapeCast S5000x1 v2 shapeCasts_S5000x1_S5000x1) broadcasts_S5000x1_S5000x16))
      (broadcastTo S5000x16 (shapeCast S1x16 v6 shapeCasts_S1x16_S1x16) broadcasts_S1x16_S5000x16) (ix2 p q)
      = logit2 v0 v2 v6 p q := by
  rw [addf_apply, mulf_apply, Cert.LibKeepdims.broadcastTo_a1_ab_apply, Cert.LibBlockLayout.rowBroadcast_at,
    shapeCast_self, shapeCast_self, shapeCast_self]
  rfl

/-- The third body at `(p, q)`: the softmax of row `p`'s logits at `q`. -/
theorem pay2_at (v0 : FVec Ideal S5000x16 .f32) (v2 : FVec Ideal S5000x1 .f32) (v6 : FVec Ideal S1x16 .f32)
    (p : Fin 5000) (q : Fin 16) :
    k2_pay1 (F := Ideal) v0 v2 v6 (ix2 p q) = smRow (fun q' => logit2 v0 v2 v6 p q') q := by
  unfold k2_pay1
  generalize hL : addf (F := Ideal) (mulf (F := Ideal) (shapeCast S5000x16 v0 shapeCasts_S5000x16_S5000x16)
        (broadcastTo S5000x16 (shapeCast S5000x1 v2 shapeCasts_S5000x1_S5000x1) broadcasts_S5000x1_S5000x16))
      (broadcastTo S5000x16 (shapeCast S1x16 v6 shapeCasts_S1x16_S1x16) broadcasts_S1x16_S5000x16) = L
  have hLq : ∀ q', L (ix2 p q') = logit2 v0 v2 v6 p q' := fun q' => by rw [← hL]; exact logit2_at v0 v2 v6 p q'
  have hmax := Cert.LibRowMax.multiReduction_maximumf_rows (a := 5000) (b := 16) L 0xFF800000#32
    reduces_S5000x16_S5000 (.inl rfl) rfl p
  generalize hM : maximumf (F := Ideal) (broadcast S5000 (Scalar.ofBits (F := Ideal) .f32 0xFF800000#32))
        (multiReduction (F := Ideal) .maximumf [1] S5000 L 0xFF800000#32 reduces_S5000x16_S5000 (.inl rfl) rfl) = M
  have htop : M (ix1 p) = rowTop (fun q' => logit2 v0 v2 v6 p q') := by
    rw [← hM]
    refine (congrArg (max (Ideal.ofBits .f32 0xFF800000#32)) hmax).trans ?_
    unfold rowTop
    simp only [hLq]
  generalize hX : exp (F := Ideal) (subf (F := Ideal) L (broadcastTo S5000x16 (shapeCast S5000x1 M shapeCasts_S5000_S5000x1)
      broadcasts_S5000x1_S5000x16)) = X
  have hexp : ∀ q', X (ix2 p q') = Ideal.exp (logit2 v0 v2 v6 p q' - rowTop (fun q'' => logit2 v0 v2 v6 p q'')) :=
    fun q' => by
      rw [← hX]
      show Ideal.exp (subf (F := Ideal) L _ (ix2 p q')) = _
      rw [subf_apply, Cert.LibKeepdims.broadcastTo_a1_ab_apply, Cert.LibKeepdims.shapeCast_a_a1_apply, htop, hLq]
  have hsum := Cert.LibKeepdims.multiReduction_add_rows (a := 5000) (b := 16) X 0x00000000#32
    reduces_S5000x16_S5000 (.inl rfl) rfl p
  rw [divf_apply, hexp, Cert.LibKeepdims.broadcastTo_a1_ab_apply, Cert.LibKeepdims.shapeCast_a_a1_apply]
  refine (congrArg (Ideal.div _) hsum).trans ?_
  unfold smRow
  simp only [hexp]

end Cert.KernelIdeal.Body

end
-- ==== Proof.KernelRegions.lean ====
/-
  Each of the three kernel launches, read as one function of the arrays it is entered with.

  Every launch tiles its row-indexed operands and its output in ten blocks of 5000 rows and keeps the weight
  matrix and the bias row whole. Block `t` of the output is the body's result on block `t` of the row-indexed
  operands, each entry reading one row, so the ten blocks are the restrictions of one whole-array function, and
  since they tile the output the array ends holding that function: `G0` (product with the first weights, scaled by
  the node's factor), `G1` (scale, bias, leaky rectifier, product with the second weights, scale) and `G2`
  (scale, bias, row softmax).
-/
import proofs.«131746_j44220983280095_2_alg».proof.Proof.Gen.KernelIdeal.Frame
import proofs.«131746_j44220983280095_2_alg».proof.Proof.KernelBodies

set_option maxRecDepth 16384

noncomputable section

open scoped BigOperators

namespace Cert.KernelIdeal.Reg

open Cert.KernelIdeal Cert.KernelIdeal.Gen Idealize.ShloMosaic Idealize.ShloMosaic.TcCoe Idealize.ShloMosaic.ValueIdx
open Idealize.SL.Sem Idealize.ShloMosaic.Pipeline Cert.GcnSpec

theorem hz : (![0, 0] : Fin 2 → Nat) = fun _ => 0 := funext fun a => by fin_cases a <;> rfl

/-- The first launch's result: feature row `r` against weight column `g`, times node `r`'s factor. -/
def G0 (X : FVec Ideal S50000x512 .f32) (W : FVec Ideal S512x256 .f32) (D : FVec Ideal S50000x1 .f32) :
    FVec Ideal S50000x256 .f32 :=
  fun i => (∑ k : Fin 512, X (ix2 (i 0) k) * W (ix2 k (i 1))) * D (ix2 (i 0) (0 : Fin 1))

/-- The second launch's result: the aggregated row scaled, biased and rectified, against weight column `g`, times
    the node's factor. -/
def G1 (A : FVec Ideal S50000x256 .f32) (D : FVec Ideal S50000x1 .f32) (B : FVec Ideal S1x256 .f32)
    (W : FVec Ideal S256x16 .f32) : FVec Ideal S50000x16 .f32 :=
  fun i => (∑ k : Fin 256, leakyS (A (ix2 (i 0) k) * D (ix2 (i 0) (0 : Fin 1)) + B (ix2 (0 : Fin 1) k)) * W (ix2 k (i 1)))
    * D (ix2 (i 0) (0 : Fin 1))

/-- The third launch's result: the softmax of the aggregated row scaled and biased. -/
def G2 (A : FVec Ideal S50000x16 .f32) (D : FVec Ideal S50000x1 .f32) (B : FVec Ideal S1x16 .f32) :
    FVec Ideal S50000x16 .f32 :=
  fun i => smRow (fun q' : Fin 16 => A (ix2 (i 0) q') * D (ix2 (i 0) (0 : Fin 1)) + B (ix2 (0 : Fin 1) q')) (i 1)

variable (V : (c : Dev nD) → (b : Ref sig .tc) → Buf (Elt Ideal) ((c : Thread nD τ).loc b))

/-! ## Region 0: the product with the first weight matrix -/

/-- The printed index maps over the grid: the row-tiled windows move with the output window, the whole-array windows
    stay at block zero, and the output's row block stays below ten. -/
theorem idx0 : ∀ t : Fin cfg0.N, win0_0.index t (0 : Fin 2) = win0_3.index t (0 : Fin 2) ∧ win0_0.index t (1 : Fin 2) = 0 ∧ win0_1.index t (0 : Fin 2) = 0 ∧ win0_1.index t (1 : Fin 2) = 0
    ∧ win0_2.index t (0 : Fin 2) = win0_3.index t (0 : Fin 2) ∧ win0_2.index t (1 : Fin 2) = 0 ∧ win0_3.index t (1 : Fin 2) = 0 ∧ win0_3.index t (0 : Fin 2) ≤ 9 :=
  (by decide +kernel : ∀ t : Fin grid0.N, _)

/-- Every row block of the output is some grid point's. -/
theorem onto0 : ∀ q0 : Fin 10, ∃ t : Fin cfg0.N, win0_3.index t = ![q0.val, 0] :=
  (by decide +kernel : ∀ q0 : Fin 10, ∃ t : Fin grid0.N, win0_3.index t = ![q0.val, 0])

set_option maxHeartbeats 4000000 in
/-- What grid point `t` writes back is block `t` of the region's function of the arrays as the region finds them. -/
theorem flushed0 (c : Dev nD) (t : Fin cfg0.N) :
    (dat0 V c).flushed 3 t = ((cfg0.win 3).blk t).view.read (Elt Ideal) (G0 (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x256) hz, View.ld_unit_zero (S := S5000x1) hz]
  obtain ⟨e0, e1, e2, e3, e4, e5, e6, e7⟩ := idx0 t
  funext j
  obtain ⟨p, q, rfl⟩ : ∃ (p : Fin 5000) (q : Fin 256), j = ix2 p q := ⟨j 0, j 1, eq_ix2 j⟩
  refine (Body.pay0_at _ _ _ p q).trans ?_
  have hr : win0_3.index t (0 : Fin 2) * 5000 + p.val < 50000 := by have := p.isLt; omega
  have h0 : ∀ k : Fin 512, ((cfg0.win 0).blk t).view.emb (ix2 p k) = ix2 (⟨win0_3.index t (0 : Fin 2) * 5000 + p.val, hr⟩ : Fin 50000) k := fun k => by
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 512 + 1 * k.val = k.val; omega
  have h1 : ∀ k : Fin 512, ((cfg0.win 1).blk t).view.emb (ix2 k q) = ix2 k q := fun k => by
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  have h2 : ((cfg0.win 2).blk t).view.emb (ix2 p (0 : Fin 1)) = ix2 (⟨win0_3.index t (0 : Fin 2) * 5000 + p.val, hr⟩ : Fin 50000) (0 : Fin 1) := by
    funext a; apply Fin.ext
    match a with
    | ⟨0, _⟩ => show win0_2.index t (0 : Fin 2) * 5000 + 1 * p.val = win0_3.index t (0 : Fin 2) * 5000 + p.val; omega
    | ⟨1, _⟩ => show win0_2.index t (1 : Fin 2) * 1 + 1 * (0 : Fin 1).val = (0 : Fin 1).val; omega
  have h3 : ((cfg0.win 3).blk t).view.emb (ix2 p q) = ix2 (⟨win0_3.index t (0 : Fin 2) * 5000 + p.val, hr⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 256 + 1 * q.val = q.val; omega
  have key : ∀ (X : FVec Ideal S50000x512 .f32) (W : FVec Ideal S512x256 .f32) (D : FVec Ideal S50000x1 .f32),
      (∑ k : Fin 512, X (((cfg0.win 0).blk t).view.emb (ix2 p k)) * W (((cfg0.win 1).blk t).view.emb (ix2 k q)))
        * D (((cfg0.win 2).blk t).view.emb (ix2 p (0 : Fin 1))) = G0 X W D (((cfg0.win 3).blk t).view.emb (ix2 p q)) := by
    intro X W D
    rw [h2, h3]
    simp only [h0, h1]
    rfl
  exact key _ _ _

/-- An index of the output array is in point `t`'s block iff each coordinate is in the block's range. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v18).slice (win0_3.rect t)).set ↔ _
  rw [View.set_slice_whole, Rect.mem_set_unit]
  exact Iff.rfl

/-- The ten row blocks tile the output array. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The output array after the region: the region's function of the arrays it was entered with. -/
theorem final0 (c : Dev nD) : (dat0 V c).arrAt 3 cfg0.N = G0 (V c main_arg0) (V c main_arg2) (V c main_v17) :=
  (dat0 V c).arrAt_eq_of_cover 3 _ (fun t _ => flushed0 V c t) (cover0)

/-! ## Region 1: scale, bias, rectifier and the product with the second weight matrix -/

/-- The printed index maps over the grid: the row-tiled windows move with the output window, the whole-array windows
    stay at block zero, and the output's row block stays below ten. -/
theorem idx1 : ∀ t : Fin cfg1.N, win1_0.index t (0 : Fin 2) = win1_4.index t (0 : Fin 2) ∧ win1_0.index t (1 : Fin 2) = 0 ∧ win1_1.index t (0 : Fin 2) = win1_4.index t (0 : Fin 2) ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0 ∧ win1_4.index t (1 : Fin 2) = 0 ∧ win1_4.index t (0 : Fin 2) ≤ 9 :=
  (by decide +kernel : ∀ t : Fin grid1.N, _)

/-- Every row block of the output is some grid point's. -/
theorem onto1 : ∀ q0 : Fin 10, ∃ t : Fin cfg1.N, win1_4.index t = ![q0.val, 0] :=
  (by decide +kernel : ∀ q0 : Fin 10, ∃ t : Fin grid1.N, win1_4.index t = ![q0.val, 0])

set_option maxHeartbeats 4000000 in
/-- What grid point `t` writes back is block `t` of the region's function of the arrays as the region finds them. -/
theorem flushed1 (c : Dev nD) (t : Fin cfg1.N) :
    (dat1 V c).flushed 4 t = ((cfg1.win 4).blk t).view.read (Elt Ideal) (G1 (V c main_v28) (V c main_v17) (V c main_v29) (V c main_arg4)) := by
  show (cfg1.win 4).cut (grid1.coords t) ((dat1 V c).after 4 t) = _
  rw [after1_4]
  unfold out1_4
  rw [View.canon_unit_zero hz]
  simp only [View.ld_unit_zero (S := S5000x256) hz, View.ld_unit_zero (S := S5000x1) hz, View.ld_unit_zero (S := S1x256) hz, View.ld_unit_zero (S := S256x16) hz]
  obtain ⟨e0, e1, e2, e3, e4, e5, e6, e7, e8, e9⟩ := idx1 t
  funext j
  obtain ⟨p, q, rfl⟩ : ∃ (p : Fin 5000) (q : Fin 16), j = ix2 p q := ⟨j 0, j 1, eq_ix2 j⟩
  refine (Body.pay1_at _ _ _ _ p q).trans ?_
  have hr : win1_4.index t (0 : Fin 2) * 5000 + p.val < 50000 := by have := p.isLt; omega
  have h0 : ∀ k : Fin 256, ((cfg1.win 0).blk t).view.emb (ix2 p k) = ix2 (⟨win1_4.index t (0 : Fin 2) * 5000 + p.val, hr⟩ : Fin 50000) k := fun k => by
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 256 + 1 * k.val = k.val; omega
  have h1 : ((cfg1.win 1).blk t).view.emb (ix2 p (0 : Fin 1)) = ix2 (⟨win1_4.index t (0 : Fin 2) * 5000 + p.val, hr⟩ : Fin 50000) (0 : Fin 1) := by
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 1 + 1 * (0 : Fin 1).val = (0 : Fin 1).val; omega
  have h2 : ∀ k : Fin 256, ((cfg1.win 2).blk t).view.emb (ix2 (0 : Fin 1) k) = ix2 (0 : Fin 1) k := fun k => by
    funext a; apply Fin.ext
    match a with
    | ⟨0, _⟩ => show win1_2.index t (0 : Fin 2) * 1 + 1 * (0 : Fin 1).val = (0 : Fin 1).val; omega
    | ⟨1, _⟩ => show win1_2.index t (1 : Fin 2) * 256 + 1 * k.val = k.val; omega
  have h3 : ∀ k : Fin 256, ((cfg1.win 3).blk t).view.emb (ix2 k q) = ix2 k q := fun k => by
    funext a; apply Fin.ext
    match a with
    | ⟨0, _⟩ => show win1_3.index t (0 : Fin 2) * 256 + 1 * k.val = k.val; omega
    | ⟨1, _⟩ => show win1_3.index t (1 : Fin 2) * 16 + 1 * q.val = q.val; omega
  have h4 : ((cfg1.win 4).blk t).view.emb (ix2 p q) = ix2 (⟨win1_4.index t (0 : Fin 2) * 5000 + p.val, hr⟩ : Fin 50000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 16 + 1 * q.val = q.val; omega
  have key : ∀ (A : FVec Ideal S50000x256 .f32) (D : FVec Ideal S50000x1 .f32) (B : FVec Ideal S1x256 .f32) (W : FVec Ideal S256x16 .f32),
      (∑ k : Fin 256, leakyS (A (((cfg1.win 0).blk t).view.emb (ix2 p k)) * D (((cfg1.win 1).blk t).view.emb (ix2 p (0 : Fin 1)))
          + B (((cfg1.win 2).blk t).view.emb (ix2 (0 : Fin 1) k))) * W (((cfg1.win 3).blk t).view.emb (ix2 k q)))
        * D (((cfg1.win 1).blk t).view.emb (ix2 p (0 : Fin 1)))
      = G1 A D B W (((cfg1.win 4).blk t).view.emb (ix2 p q)) := by
    intro A D B W
    rw [h1, h4]
    simp only [h0, h2, h3]
    rfl
  exact key _ _ _ _

/-- An index of the output array is in point `t`'s block iff each coordinate is in the block's range. -/
theorem mem_blk1 (t : Fin cfg1.N) (i : S50000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v30).slice (win1_4.rect t)).set ↔ _
  rw [View.set_slice_whole, Rect.mem_set_unit]
  exact Iff.rfl

/-- The ten row blocks tile the output array. -/
theorem cover1 (i : S50000x16.Idx) :
    ∃ t : Fin cfg1.N, (cfg1.win 4).flush t = true ∧ i ∈ ((cfg1.win 4).blk t).view.set := by
  have hi0 : (i 0).val < 50000 := (i 0).isLt
  have hi1 : (i 1).val < 16 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- The output array after the region: the region's function of the arrays it was entered with. -/
theorem final1 (c : Dev nD) : (dat1 V c).arrAt 4 cfg1.N = G1 (V c main_v28) (V c main_v17) (V c main_v29) (V c main_arg4) :=
  (dat1 V c).arrAt_eq_of_cover 4 _ (fun t _ => flushed1 V c t) (cover1)

/-! ## Region 2: scale, bias and the row softmax -/

/-- The printed index maps over the grid: the row-tiled windows move with the output window, the whole-array windows
    stay at block zero, and the output's row block stays below ten. -/
theorem idx2 : ∀ t : Fin cfg2.N, win2_0.index t (0 : Fin 2) = win2_3.index t (0 : Fin 2) ∧ win2_0.index t (1 : Fin 2) = 0 ∧ win2_1.index t (0 : Fin 2) = win2_3.index t (0 : Fin 2) ∧ win2_1.index t (1 : Fin 2) = 0
    ∧ win2_2.index t (0 : Fin 2) = 0 ∧ win2_2.index t (1 : Fin 2) = 0 ∧ win2_3.index t (1 : Fin 2) = 0 ∧ win2_3.index t (0 : Fin 2) ≤ 9 :=
  (by decide +kernel : ∀ t : Fin grid2.N, _)

/-- Every row block of the output is some grid point's. -/
theorem onto2 : ∀ q0 : Fin 10, ∃ t : Fin cfg2.N, win2_3.index t = ![q0.val, 0] :=
  (by decide +kernel : ∀ q0 : Fin 10, ∃ t : Fin grid2.N, win2_3.index t = ![q0.val, 0])

set_option maxHeartbeats 4000000 in
/-- What grid point `t` writes back is block `t` of the region's function of the arrays as the region finds them. -/
theorem flushed2 (c : Dev nD) (t : Fin cfg2.N) :
    (dat2 V c).flushed 3 t = ((cfg2.win 3).blk t).view.read (Elt Ideal) (G2 (V c main_v40) (V c main_v17) (V c main_v41)) := by
  show (cfg2.win 3).cut (grid2.coords t) ((dat2 V c).after 3 t) = _
  rw [after2_3]
  unfold out2_3
  rw [View.canon_unit_zero hz]
  simp only [View.ld_unit_zero (S := S5000x16) hz, View.ld_unit_zero (S := S5000x1) hz, View.ld_unit_zero (S := S1x16) hz]
  obtain ⟨e0, e1, e2, e3, e4, e5, e6, e7⟩ := idx2 t
  funext j
  obtain ⟨p, q, rfl⟩ : ∃ (p : Fin 5000) (q : Fin 16), j = ix2 p q := ⟨j 0, j 1, eq_ix2 j⟩
  refine (Body.pay2_at _ _ _ p q).trans ?_
  have hr : win2_3.index t (0 : Fin 2) * 5000 + p.val < 50000 := by have := p.isLt; omega
  have h0 : ∀ k : Fin 16, ((cfg2.win 0).blk t).view.emb (ix2 p k) = ix2 (⟨win2_3.index t (0 : Fin 2) * 5000 + p.val, hr⟩ : Fin 50000) k := fun k => by
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 16 + 1 * k.val = k.val; omega
  have h1 : ((cfg2.win 1).blk t).view.emb (ix2 p (0 : Fin 1)) = ix2 (⟨win2_3.index t (0 : Fin 2) * 5000 + p.val, hr⟩ : Fin 50000) (0 : Fin 1) := by
    funext a; apply Fin.ext
    match a with
    | ⟨0, _⟩ => show win2_1.index t (0 : Fin 2) * 5000 + 1 * p.val = win2_3.index t (0 : Fin 2) * 5000 + p.val; omega
    | ⟨1, _⟩ => show win2_1.index t (1 : Fin 2) * 1 + 1 * (0 : Fin 1).val = (0 : Fin 1).val; omega
  have h2 : ∀ k : Fin 16, ((cfg2.win 2).blk t).view.emb (ix2 (0 : Fin 1) k) = ix2 (0 : Fin 1) k := fun k => by
    funext a; apply Fin.ext
    match a with
    | ⟨0, _⟩ => show win2_2.index t (0 : Fin 2) * 1 + 1 * (0 : Fin 1).val = (0 : Fin 1).val; omega
    | ⟨1, _⟩ => show win2_2.index t (1 : Fin 2) * 16 + 1 * k.val = k.val; omega
  have h3 : ((cfg2.win 3).blk t).view.emb (ix2 p q) = ix2 (⟨win2_3.index t (0 : Fin 2) * 5000 + p.val, hr⟩ : Fin 50000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 16 + 1 * q.val = q.val; omega
  have key : ∀ (A : FVec Ideal S50000x16 .f32) (D : FVec Ideal S50000x1 .f32) (B : FVec Ideal S1x16 .f32),
      smRow (fun q' : Fin 16 => A (((cfg2.win 0).blk t).view.emb (ix2 p q')) * D (((cfg2.win 1).blk t).view.emb (ix2 p (0 : Fin 1)))
          + B (((cfg2.win 2).blk t).view.emb (ix2 (0 : Fin 1) q'))) q
      = G2 A D B (((cfg2.win 3).blk t).view.emb (ix2 p q)) := by
    intro A D B
    rw [h1, h3]
    simp only [h0, h2]
    rfl
  exact key _ _ _

/-- An index of the output array is in point `t`'s block iff each coordinate is in the block's range. -/
theorem mem_blk2 (t : Fin cfg2.N) (i : S50000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v42).slice (win2_3.rect t)).set ↔ _
  rw [View.set_slice_whole, Rect.mem_set_unit]
  exact Iff.rfl

/-- The ten row blocks tile the output array. -/
theorem cover2 (i : S50000x16.Idx) :
    ∃ t : Fin cfg2.N, (cfg2.win 3).flush t = true ∧ i ∈ ((cfg2.win 3).blk t).view.set := by
  have hi0 : (i 0).val < 50000 := (i 0).isLt
  have hi1 : (i 1).val < 16 := (i 1).isLt
  obtain ⟨t, ht⟩ := onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 16 ≤ (i 1).val ∧ (i 1).val < win2_3.index t (1 : Fin 2) * 16 + 16; omega

/-- The output array after the region: the region's function of the arrays it was entered with. -/
theorem final2 (c : Dev nD) : (dat2 V c).arrAt 3 cfg2.N = G2 (V c main_v40) (V c main_v17) (V c main_v41) :=
  (dat2 V c).arrAt_eq_of_cover 3 _ (fun t _ => flushed2 V c t) (cover2)

end Cert.KernelIdeal.Reg

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelRun.lean ====
/-
  The kernel program's run with its result named, and that result as one function of the arguments.

  The program is three kernel launches among four stretches of host operations. Its run ends with every buffer at
  the contents of the last boundary; this module states that for the result buffer and then walks the boundary
  contents back: each launch's output array is the launch's whole-array function of the arrays it was entered
  with, each host stretch's results are its operations applied to the contents before it, and a buffer no stretch
  or launch writes keeps its contents. The result is `kernelOut` of the six argument arrays: the softmax launch
  of the second aggregation of the second launch of the first aggregation of the first launch.
-/
import proofs.«131746_j44220983280095_2_alg».proof.Proof.Gen.KernelIdeal.Frame
import proofs.«131746_j44220983280095_2_alg».proof.Proof.KernelRegions
import proofs.«131746_j44220983280095_2_alg».proof.Proof.RefReadP
import proofs.«131746_j44220983280095_2_alg».proof.Proof.LibTypedRef
import Idealize.ShloMosaic.Lib.StableHlo.Run

set_option maxRecDepth 16384

noncomputable section

namespace Cert.KernelIdeal.RunV

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the argument arrays as launched. -/
theorem run_last : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Run

/-! ## The boundary contents, walked back (at the exact instance) -/

section Walk

variable (m : (ℓ : Loc nD τ sig) → Buf (Elt Ideal) ℓ) (ρ : Dev nD → PrngReg)

/-- The second aggregation's pieces and the first's, in the host's spelling: rows of a table gathered at the source
    column and summed into the destination column's buckets, from a zero matrix. -/
def agg256 (T : FVec Ideal S50000x256 .f32) (x1 : IVec S2x800000 32) : FVec Ideal S50000x256 .f32 :=
  Host.scatterAdd scatter_S50000x256_S850000x1_S850000x256_1_0_0_1 (Cert.ReferenceIdeal.ReadP.val_main_v43 (F := Ideal)) (Cert.ReferenceIdeal.ReadP.val_main_v44 (F := Ideal) x1)
    (Host.gather gather_S50000x256_S850000x1_S850000x256_1_0_n_n_0_1_1256 T (Cert.ReferenceIdeal.ReadP.val_main_v38 (F := Ideal) x1))

def agg16 (T : FVec Ideal S50000x16 .f32) (x1 : IVec S2x800000 32) : FVec Ideal S50000x16 .f32 :=
  Host.scatterAdd scatter_S50000x16_S850000x1_S850000x16_1_0_0_1 (Cert.ReferenceIdeal.ReadP.val_main_v65 (F := Ideal)) (Cert.ReferenceIdeal.ReadP.val_main_v66 (F := Ideal) x1)
    (Host.gather gather_S50000x16_S850000x1_S850000x16_1_0_n_n_0_1_116 T (Cert.ReferenceIdeal.ReadP.val_main_v60 (F := Ideal) x1))

/-- The nodes' normalization factors as a column. -/
def dcol (x1 : IVec S2x800000 32) : FVec Ideal S50000x1 .f32 :=
  shapeCast S50000x1 (Cert.ReferenceIdeal.ReadP.val_main_v16 (F := Ideal) x1) shapeCasts_S50000_S50000x1

/-- The program's result as one function of its six arguments. -/
def kernelOut (x0 : FVec Ideal S50000x512 .f32) (x1 : IVec S2x800000 32) (x2 : FVec Ideal S512x256 .f32)
    (x3 : FVec Ideal S256 .f32) (x4 : FVec Ideal S256x16 .f32) (x5 : FVec Ideal S16 .f32) : FVec Ideal S50000x16 .f32 :=
  Reg.G2 (agg16 (Reg.G1 (agg256 (Reg.G0 x0 x2 (dcol x1)) x1) (dcol x1) (shapeCast S1x256 x3 shapeCasts_S256_S1x256) x4) x1)
    (dcol x1) (shapeCast S1x16 x5 shapeCasts_S16_S1x16)

/-! ### Before the first launch -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W1_main_arg1 (c : Dev nD) : W1 m ρ c (Proc.devRef .tc main_arg1) = m ((c : Thread nD τ).loc main_arg1) :=
  (StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The source indices, the destination indices and the factors, as the first stretch computes them. -/
theorem W1_v3 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

theorem W1_v6 (c : Dev nD) : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

theorem W1_v12 (c : Dev nD) : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results
  rfl

theorem W1_v15 (c : Dev nD) : W1 m ρ c (Proc.devRef .tc main_v15) = Cert.ReferenceIdeal.ReadP.val_main_v15 (F := Ideal) (m ((c : Thread nD τ).loc main_arg1)) := by
  show StableHlo.after hostOps0 (W0 m ρ c) (Proc.devRef .tc main_v15) = _
  after_results
  rfl

theorem W1_cst3 (c : Dev nD) : W1 m ρ c (Proc.devRef .tc main_cst_3) = Cert.ReferenceIdeal.ReadP.val_main_cst_3 (F := Ideal) := by
  show StableHlo.after hostOps0 (W0 m ρ c) (Proc.devRef .tc main_cst_3) = _
  after_results
  rfl

/-- The outlined `where` over any contents: the factor where the degree is positive, zero elsewhere. -/
theorem where_at (V : Valuation τ sig (Elt Ideal)) :
    StableHlo.after (hostOps0_1 (F := Ideal)) V (Proc.devRef .tc main_v16)
      = select (V (Proc.devRef .tc main_v12)) (V (Proc.devRef .tc main_v15))
          (broadcastInDim S50000 ![] bcast_S_S50000 (id (V (Proc.devRef .tc main_cst_3)))) := by
  after_results
  rfl

theorem W2_v16 (c : Dev nD) : W2 m ρ c (Proc.devRef .tc main_v16) = Cert.ReferenceIdeal.ReadP.val_main_v16 (F := Ideal) (m ((c : Thread nD τ).loc main_arg1)) := by
  refine (where_at (W1 m ρ c)).trans ?_
  rw [W1_v12, W1_v15, W1_cst3]
  rfl

/-- The reshape of the factors to a column over any contents. -/
theorem column_at (V : Valuation τ sig (Elt Ideal)) :
    StableHlo.after (hostOps0_2 (F := Ideal)) V (Proc.devRef .tc main_v17)
      = shapeCast S50000x1 (V (Proc.devRef .tc main_v16)) shapeCasts_S50000_S50000x1 := by
  after_results
  rfl

theorem W3_v17 (c : Dev nD) : W3 m ρ c (Proc.devRef .tc main_v17) = dcol (m ((c : Thread nD τ).loc main_arg1)) := by
  refine (column_at (W2 m ρ c)).trans ?_
  rw [W2_v16]
  rfl

theorem W3_v3 (c : Dev nD) : W3 m ρ c (Proc.devRef .tc main_v3) = Cert.ReferenceIdeal.ReadP.val_main_v3 (F := Ideal) (m ((c : Thread nD τ).loc main_arg1)) :=
  calc W3 m ρ c (Proc.devRef .tc main_v3)
    _ = W2 m ρ c (Proc.devRef .tc main_v3) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W1_v3 m ρ c

theorem W3_v6 (c : Dev nD) : W3 m ρ c (Proc.devRef .tc main_v6) = Cert.ReferenceIdeal.ReadP.val_main_v6 (F := Ideal) (m ((c : Thread nD τ).loc main_arg1)) :=
  calc W3 m ρ c (Proc.devRef .tc main_v6)
    _ = W2 m ρ c (Proc.devRef .tc main_v6) := StableHlo.after_of_forall_not_mem _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W1_v6 m ρ c

/-! ### The first launch and the stretch after it -/

theorem W4_v18 (c : Dev nD) : W4 m ρ c (Proc.devRef .tc main_v18)
    = Reg.G0 (m ((c : Thread nD τ).loc main_arg0)) (m ((c : Thread nD τ).loc main_arg2)) (dcol (m ((c : Thread nD τ).loc main_arg1))) := by
  refine (W4_arr m ρ c 3).trans ((Reg.final0 (V3 m ρ) c).trans ?_)
  show Reg.G0 (W3 m ρ c (Proc.devRef .tc main_arg0)) (W3 m ρ c (Proc.devRef .tc main_arg2)) (W3 m ρ c (Proc.devRef .tc main_v17)) = _
  rw [W3_main_arg0, W3_main_arg2, W3_v17]

theorem W4_v17 (c : Dev nD) : W4 m ρ c (Proc.devRef .tc main_v17) = dcol (m ((c : Thread nD τ).loc main_arg1)) :=
  ((W4_arr m ρ c 2).trans (((dat0 (V3 m ρ) c).arrAt_in 2 rfl _).trans (A_eq0 (V3 m ρ) c 2))).trans (W3_v17 m ρ c)

theorem W4_v3 (c : Dev nD) : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)

theorem W4_v6 (c : Dev nD) : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)

theorem W4_arg3 (c : Dev nD) : W4 m ρ c (Proc.devRef .tc main_arg3) = m ((c : Thread nD τ).loc main_arg3) :=
  (W4_of_ne m ρ c main_arg3 (by decide)).trans (W3_main_arg3 m ρ c)

theorem W4_arg4 (c : Dev nD) : W4 m ρ c (Proc.devRef .tc main_arg4) = m ((c : Thread nD τ).loc main_arg4) :=
  (W4_of_ne m ρ c main_arg4 (by decide)).trans (W3_main_arg4 m ρ c)

theorem W4_arg5 (c : Dev nD) : W4 m ρ c (Proc.devRef .tc main_arg5) = m ((c : Thread nD τ).loc main_arg5) :=
  (W4_of_ne m ρ c main_arg5 (by decide)).trans (W3_main_arg5 m ρ c)

theorem W5_v28 (c : Dev nD) : W5 m ρ c (Proc.devRef .tc main_v28)
    = agg256 (Reg.G0 (m ((c : Thread nD τ).loc main_arg0)) (m ((c : Thread nD τ).loc main_arg2)) (dcol (m ((c : Thread nD τ).loc main_arg1))))
        (m ((c : Thread nD τ).loc main_arg1)) := by
  show StableHlo.after hostOps1 (W4 m ρ c) (Proc.devRef .tc main_v28) = _
  after_results
  rw [W4_v18, W4_v6, W4_v3]
  rfl

theorem W5_v29 (c : Dev nD) : W5 m ρ c (Proc.devRef .tc main_v29) = shapeCast S1x256 (m ((c : Thread nD τ).loc main_arg3)) shapeCasts_S256_S1x256 := by
  show StableHlo.after hostOps1 (W4 m ρ c) (Proc.devRef .tc main_v29) = _
  after_results
  rw [W4_arg3]
  rfl

theorem W5_v17 (c : Dev nD) : W5 m ρ c (Proc.devRef .tc main_v17) = dcol (m ((c : Thread nD τ).loc main_arg1)) :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v17 m ρ c)

theorem W5_v3 (c : Dev nD) : W5 m ρ c (Proc.devRef .tc main_v3) = Cert.ReferenceIdeal.ReadP.val_main_v3 (F := Ideal) (m ((c : Thread nD τ).loc main_arg1)) :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v3 m ρ c)

theorem W5_v6 (c : Dev nD) : W5 m ρ c (Proc.devRef .tc main_v6) = Cert.ReferenceIdeal.ReadP.val_main_v6 (F := Ideal) (m ((c : Thread nD τ).loc main_arg1)) :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v6 m ρ c)

theorem W5_arg4 (c : Dev nD) : W5 m ρ c (Proc.devRef .tc main_arg4) = m ((c : Thread nD τ).loc main_arg4) :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg4 m ρ c)

theorem W5_arg5 (c : Dev nD) : W5 m ρ c (Proc.devRef .tc main_arg5) = m ((c : Thread nD τ).loc main_arg5) :=
  (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg5 m ρ c)

/-! ### The second launch and the stretch after it -/

/-- The second launch's output, of the arguments. -/
def hs2 (x0 : FVec Ideal S50000x512 .f32) (x1 : IVec S2x800000 32) (x2 : FVec Ideal S512x256 .f32)
    (x3 : FVec Ideal S256 .f32) (x4 : FVec Ideal S256x16 .f32) : FVec Ideal S50000x16 .f32 :=
  Reg.G1 (agg256 (Reg.G0 x0 x2 (dcol x1)) x1) (dcol x1) (shapeCast S1x256 x3 shapeCasts_S256_S1x256) x4

theorem W6_v30 (c : Dev nD) : W6 m ρ c (Proc.devRef .tc main_v30)
    = hs2 (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 4).trans ((Reg.final1 (V5 m ρ) c).trans ?_)
  show Reg.G1 (W5 m ρ c (Proc.devRef .tc main_v28)) (W5 m ρ c (Proc.devRef .tc main_v17)) (W5 m ρ c (Proc.devRef .tc main_v29))
      (W5 m ρ c (Proc.devRef .tc main_arg4)) = _
  rw [W5_v28, W5_v17, W5_v29, W5_arg4]
  rfl

theorem W6_v17 (c : Dev nD) : W6 m ρ c (Proc.devRef .tc main_v17) = dcol (m ((c : Thread nD τ).loc main_arg1)) :=
  ((W6_arr m ρ c 1).trans (((dat1 (V5 m ρ) c).arrAt_in 1 rfl _).trans (A_eq1 (V5 m ρ) c 1))).trans (W5_v17 m ρ c)

theorem W6_v3 (c : Dev nD) : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)

theorem W6_v6 (c : Dev nD) : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)

theorem W6_arg5 (c : Dev nD) : W6 m ρ c (Proc.devRef .tc main_arg5) = m ((c : Thread nD τ).loc main_arg5) :=
  (W6_of_ne m ρ c main_arg5 (by decide)).trans (W5_arg5 m ρ c)

theorem W7_v40 (c : Dev nD) : W7 m ρ c (Proc.devRef .tc main_v40)
    = agg16 (hs2 (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg1)) := by
  show StableHlo.after hostOps2 (W6 m ρ c) (Proc.devRef .tc main_v40) = _
  after_results
  rw [W6_v30, W6_v6, W6_v3]
  rfl

theorem W7_v41 (c : Dev nD) : W7 m ρ c (Proc.devRef .tc main_v41) = shapeCast S1x16 (m ((c : Thread nD τ).loc main_arg5)) shapeCasts_S16_S1x16 := by
  show StableHlo.after hostOps2 (W6 m ρ c) (Proc.devRef .tc main_v41) = _
  after_results
  rw [W6_arg5]
  rfl

theorem W7_v17 (c : Dev nD) : W7 m ρ c (Proc.devRef .tc main_v17) = dcol (m ((c : Thread nD τ).loc main_arg1)) :=
  (StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_v17 m ρ c)

/-! ### The third launch -/

theorem W8_v42 (c : Dev nD) : W8 m ρ c (Proc.devRef .tc main_v42)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ((Reg.final2 (V7 m ρ) c).trans ?_)
  show Reg.G2 (W7 m ρ c (Proc.devRef .tc main_v40)) (W7 m ρ c (Proc.devRef .tc main_v17)) (W7 m ρ c (Proc.devRef .tc main_v41)) = _
  rw [W7_v40, W7_v17, W7_v41]
  rfl

/-- The program's run, read: the result buffer ends at `kernelOut` of the arguments, the arguments as launched. -/
theorem run : θ_run defs (onTc (τ := τ) (main (F := Ideal))) ⟨m, fun _ => 0, ρ⟩ (fun r => ∀ c : Dev nD,
      r.2.mem ((c.tc : Thread nD τ).loc main_v42)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v42 m ρ c), (h c).2⟩) (run_last m ρ)

end Walk

end Cert.KernelIdeal.RunV

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«131746_j44220983280095_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibGcnAgg.lean ====
/-
  One normalized neighbourhood aggregation of a graph convolution, read at an entry; general over the extents.

  A table `P` of `N` rows and `C` columns is gathered by rows at a column of `E` source indices, each gathered row is
  scaled by its edge's weight, the scaled rows are summed into `N` buckets chosen by a column of `E` destination indices
  (a scatter with an adding body into a start matrix), and a bias vector is added to every row.  On the extended reals
  entry `(n, c)` of the result is the start matrix's entry, plus the sum over the edges `e` whose destination word read
  signed is `n` of `P (row named by e's source word, c) · weight e`, plus `bias c`.  So entry `(n, c)` reads column
  `c` of the table and of the bias, and nothing of the other columns: the aggregation acts on each feature column by itself.
-/
import Idealize.ShloMosaic.Lib.Pipeline.Value
import Idealize.ShloMosaic.Lib.ValueIdx
import Idealize.ShloMosaic.PureOps.Ideal.Laws
import proofs.«131746_j44220983280095_2_alg».proof.Proof.LibGatherFlatRows
import proofs.«131746_j44220983280095_2_alg».proof.Proof.LibSegSum
import proofs.«131746_j44220983280095_2_alg».proof.Proof.LibHostRows

noncomputable section

open scoped BigOperators

namespace Cert.LibGcnAgg

open Idealize.ShloMosaic Idealize.ShloMosaic.ValueIdx

variable {N C E w : ℕ}

/-- Entry `(n, c)` of the aggregation: the start entry, plus the weighted rows of the edges into `n` at column `c`, plus
    the bias at `c`. -/
def aggAt (hN : 0 < N) (x0 P : (⟨2, ![N, C]⟩ : Shape).Idx → EReal) (idxS idxD : IVec ⟨2, ![E, 1]⟩ w)
    (nrm : (⟨1, ![E]⟩ : Shape).Idx → EReal) (bias : (⟨1, ![C]⟩ : Shape).Idx → EReal) (n : Fin N) (c : Fin C) : EReal :=
  (x0 (ix2 n c) + ∑ e : Fin E, if (idxD (ix2 e (0 : Fin 1))).toInt = (n.val : Int)
      then P (ix2 (Cert.LibGatherFlatRows.rowOf N hN (idxS (ix2 e (0 : Fin 1)))) c) * nrm (ix1 e) else 0) + bias (ix1 c)

/-- The host's spelling of the aggregation — gather of rows, product with the weights broadcast as a column and then
    along the columns, adding scatter into `x0`, sum with the bias broadcast as a row and then down the rows — read at
    `(n, c)`. -/
theorem host_agg_at (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x0 P : FVec Ideal ⟨2, ![N, C]⟩ .f32) (idxS idxD : IVec ⟨2, ![E, 1]⟩ w)
    (nrm : FVec Ideal ⟨1, ![E]⟩ .f32) (bias : FVec Ideal ⟨1, ![C]⟩ .f32)
    (d1 : Fin (⟨1, ![E]⟩ : Shape).rank → Fin (⟨2, ![E, 1]⟩ : Shape).rank) (hd1 : d1 0 = 0)
    (h1 : (⟨1, ![E]⟩ : Shape).BroadcastsInDim ⟨2, ![E, 1]⟩ d1)
    (d2 : Fin (⟨2, ![E, 1]⟩ : Shape).rank → Fin (⟨2, ![E, C]⟩ : Shape).rank) (hd20 : d2 0 = 0) (hd21 : d2 1 = 1)
    (h2 : (⟨2, ![E, 1]⟩ : Shape).BroadcastsInDim ⟨2, ![E, C]⟩ d2)
    (d3 : Fin (⟨1, ![C]⟩ : Shape).rank → Fin (⟨2, ![1, C]⟩ : Shape).rank) (hd3 : d3 0 = 1)
    (h3 : (⟨1, ![C]⟩ : Shape).BroadcastsInDim ⟨2, ![1, C]⟩ d3)
    (d4 : Fin (⟨2, ![1, C]⟩ : Shape).rank → Fin (⟨2, ![N, C]⟩ : Shape).rank) (hd40 : d4 0 = 0) (hd41 : d4 1 = 1)
    (h4 : (⟨2, ![1, C]⟩ : Shape).BroadcastsInDim ⟨2, ![N, C]⟩ d4)
    (n : Fin N) (c : Fin C) :
    addf (Host.scatterAdd (Cert.LibSegSum.rowsDims N C E wfS) x0 idxD
        (mulf (Host.gather (Cert.LibGatherFlatRows.rowDims N C E wfG) P idxS)
          (broadcastInDim ⟨2, ![E, C]⟩ d2 h2 (broadcastInDim ⟨2, ![E, 1]⟩ d1 h1 nrm))))
      (broadcastInDim ⟨2, ![N, C]⟩ d4 h4 (broadcastInDim ⟨2, ![1, C]⟩ d3 h3 bias)) (ix2 n c)
      = aggAt hN x0 P idxS idxD nrm bias n c := by
  rw [addf_apply, Cert.LibSegSum.scatterAdd_rows_apply, Cert.LibHostRows.bcast_1b_ab_at d4 hd40 hd41 h4,
    Cert.LibHostRows.bcast_b_1b_at d3 hd3 h3]
  unfold aggAt
  refine congrArg (· + bias (ix1 c)) (congrArg (x0 (ix2 n c) + ·) (Finset.sum_congr rfl fun e _ => ?_))
  rw [mulf_apply, Cert.LibGatherFlatRows.gather_rows_apply hN wfG, Cert.LibHostRows.bcast_a1_ab_at d2 hd20 hd21 h2,
    Cert.LibHostRows.bcast_a_a1_at d1 hd1 h1]

/-- Entry `(n, c)` of one aggregation and entry `(n, c')` of another with the same index columns and weights agree
    when the start matrices agree there, the tables agree on those two columns row by row, and the biases agree at them. -/
theorem aggAt_congr {C' : ℕ} (hN : 0 < N) (x0 P : (⟨2, ![N, C]⟩ : Shape).Idx → EReal)
    (x0' P' : (⟨2, ![N, C']⟩ : Shape).Idx → EReal) (idxS idxD : IVec ⟨2, ![E, 1]⟩ w)
    (nrm : (⟨1, ![E]⟩ : Shape).Idx → EReal) (bias : (⟨1, ![C]⟩ : Shape).Idx → EReal)
    (bias' : (⟨1, ![C']⟩ : Shape).Idx → EReal) (n : Fin N) (c : Fin C) (c' : Fin C')
    (hx : x0 (ix2 n c) = x0' (ix2 n c')) (hP : ∀ r : Fin N, P (ix2 r c) = P' (ix2 r c'))
    (hb : bias (ix1 c) = bias' (ix1 c')) :
    aggAt hN x0 P idxS idxD nrm bias n c = aggAt hN x0' P' idxS idxD nrm bias' n c' := by
  unfold aggAt
  rw [hx, hb]
  refine congrArg (· + bias' (ix1 c')) (congrArg (x0' (ix2 n c') + ·) (Finset.sum_congr rfl fun e _ => ?_))
  rw [hP]

end Cert.LibGcnAgg

end
-- ==== Proof.LibGcnLaw.lean ====
/-
  The algebra that joins the two spellings of a normalized graph convolution, on the extended reals.

  A neighbourhood sum whose every term carries the destination node's scale factor equals the sum of the
  terms without it, scaled once: a non-negative finite factor distributes over a finite sum of extended reals,
  whatever the summands are. The destination's factor is the inverse square root of a positive number (or zero
  where the node has no degree), so it is such a factor.
-/
import Idealize.ShloMosaic.PureOps.Ideal
import Idealize.ShloMosaic.PureOps.Ideal.Laws
import Mathlib.Algebra.BigOperators.Fin

noncomputable section

open scoped BigOperators

namespace Cert.LibGcnLaw

open Idealize.ShloMosaic

/-- A non-negative factor other than +∞ distributes over a finite sum of extended reals. -/
theorem sum_mul_of_nonneg {ι : Type} (s : Finset ι) (f : ι → EReal) (d : EReal) (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, ← ih, EReal.right_distrib_of_nonneg_of_ne_top h0 ht]

/-- The neighbourhood sum with the destination's factor inside every term is the sum without it, scaled once. The
    terms of edges that do not land on the node are zero on both sides. -/
theorem agg_scale {ι : Type} [Fintype ι] (land : ι → Prop) [DecidablePred land] (P s : ι → EReal) (d z b : EReal)
    (hz : z = 0) (h0 : 0 ≤ d) (ht : d ≠ ⊤) :
    (z + ∑ e : ι, if land e then P e * (s e * d) else 0) + b
      = (z + ∑ e : ι, if land e then P e * s e else 0) * d + b := by
  subst hz
  rw [zero_add, zero_add, sum_mul_of_nonneg _ _ d h0 ht]
  refine congrArg (· + b) (Finset.sum_congr rfl fun e _ => ?_)
  by_cases h : land e
  · rw [if_pos h, if_pos h, mul_assoc]
  · rw [if_neg h, if_neg h, zero_mul]

/-- The inverse square root of a positive extended real is non-negative and finite: it is zero at +∞ and the
    reciprocal of a positive real's root otherwise. -/
theorem rsqrt_good (y : EReal) (hy : 0 < y) : 0 ≤ Ideal.rsqrt y ∧ Ideal.rsqrt y ≠ ⊤ := by
  induction y using EReal.rec with
  | bot => exact absurd hy (by simp)
  | top => exact ⟨by simp, by simp⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- The normalization factor of a node, the inverse square root of its degree kept away from zero where the degree
    is positive and zero elsewhere, is non-negative and finite whatever the degree and the floor are. -/
theorem dinv_good (deg eps z z' : EReal) (hz : z = 0) (hz' : z' = 0) :
    0 ≤ Scalar.select (Ideal.cmp .ogt deg z) (Ideal.rsqrt (max deg eps)) z'
      ∧ Scalar.select (Ideal.cmp .ogt deg z) (Ideal.rsqrt (max deg eps)) z' ≠ ⊤ := by
  subst hz hz'
  unfold Scalar.select Ideal.cmp
  by_cases h : (0 : EReal) < deg
  · have : BitVec.ofBool (decide ((0 : EReal) < deg)) = 1 := by simp [h]
    rw [if_pos this]
    exact rsqrt_good _ (lt_of_lt_of_le h (le_max_left _ _))
  · have : ¬ BitVec.ofBool (decide ((0 : EReal) < deg)) = 1 := by simp [h]
    rw [if_neg this]
    exact ⟨le_refl _, EReal.zero_ne_top⟩

end Cert.LibGcnLaw

end
-- ==== Proof.LibGcnPrescale.lean ====
/-
  One graph-convolution layer in its two arrangements, entry by entry, for any extents.

  The reference weighs every edge's message by the product of its two endpoints' factors and sums the messages
  into the destination's bucket. The kernel scales every node's row by the node's factor once before the messages
  are gathered, sums the gathered rows unweighted, and scales the bucket by the destination's factor once after.
  For an edge that lands on node `n` the destination's factor is `n`'s, a non-negative finite number, so it comes
  out of the sum; the two arrangements agree at every entry.
-/
import proofs.«131746_j44220983280095_2_alg».proof.Proof.LibGcnAgg
import proofs.«131746_j44220983280095_2_alg».proof.Proof.LibGcnLaw

noncomputable section

open scoped BigOperators

namespace Cert.LibGcnPrescale

open Idealize.ShloMosaic Idealize.ShloMosaic.ValueIdx Cert.LibGatherFlatRows

variable {N C E w : ℕ}

/-- The weighted aggregation of a table `P` equals the unweighted aggregation of the pre-scaled table `T`, scaled
    by the destination's factor, when every edge's weight is the product of its endpoints' factors. -/
theorem layer_law (hN : 0 < N) (z P T : (⟨2, ![N, C]⟩ : Shape).Idx → EReal) (idxS idxD : IVec ⟨2, ![E, 1]⟩ w)
    (nrm : (⟨1, ![E]⟩ : Shape).Idx → EReal) (bias : (⟨1, ![C]⟩ : Shape).Idx → EReal) (Dv : Fin N → EReal)
    (hz : ∀ i, z i = 0) (hT : ∀ (r : Fin N) (c : Fin C), T (ix2 r c) = P (ix2 r c) * Dv r)
    (hD : ∀ r, 0 ≤ Dv r ∧ Dv r ≠ ⊤)
    (hn : ∀ (e : Fin E) (n : Fin N), (idxD (ix2 e (0 : Fin 1))).toInt = (n.val : Int) →
      nrm (ix1 e) = Dv (rowOf N hN (idxS (ix2 e (0 : Fin 1)))) * Dv n)
    (n : Fin N) (c : Fin C) :
    Cert.LibGcnAgg.aggAt hN z P idxS idxD nrm bias n c
      = (z (ix2 n c) + ∑ e : Fin E, if (idxD (ix2 e (0 : Fin 1))).toInt = (n.val : Int)
          then T (ix2 (rowOf N hN (idxS (ix2 e (0 : Fin 1)))) c) else 0) * Dv n + bias (ix1 c) := by
  unfold Cert.LibGcnAgg.aggAt
  have h1 : (∑ e : Fin E, if (idxD (ix2 e (0 : Fin 1))).toInt = (n.val : Int)
        then P (ix2 (rowOf N hN (idxS (ix2 e (0 : Fin 1)))) c) * nrm (ix1 e) else 0)
      = ∑ e : Fin E, if (idxD (ix2 e (0 : Fin 1))).toInt = (n.val : Int)
        then P (ix2 (rowOf N hN (idxS (ix2 e (0 : Fin 1)))) c) * (Dv (rowOf N hN (idxS (ix2 e (0 : Fin 1)))) * Dv n) else 0 :=
    Finset.sum_congr rfl fun e _ => by
      by_cases h : (idxD (ix2 e (0 : Fin 1))).toInt = (n.val : Int)
      · rw [if_pos h, if_pos h, hn e n h]
      · rw [if_neg h, if_neg h]
  have h2 : (∑ e : Fin E, if (idxD (ix2 e (0 : Fin 1))).toInt = (n.val : Int)
        then T (ix2 (rowOf N hN (idxS (ix2 e (0 : Fin 1)))) c) else 0)
      = ∑ e : Fin E, if (idxD (ix2 e (0 : Fin 1))).toInt = (n.val : Int)
        then P (ix2 (rowOf N hN (idxS (ix2 e (0 : Fin 1)))) c) * Dv (rowOf N hN (idxS (ix2 e (0 : Fin 1)))) else 0 :=
    Finset.sum_congr rfl fun e _ => by rw [hT]
  rw [h1, h2]
  exact Cert.LibGcnLaw.agg_scale (fun e : Fin E => (idxD (ix2 e (0 : Fin 1))).toInt = (n.val : Int))
    (fun e => P (ix2 (rowOf N hN (idxS (ix2 e (0 : Fin 1)))) c)) (fun e => Dv (rowOf N hN (idxS (ix2 e (0 : Fin 1)))))
    (Dv n) (z (ix2 n c)) (bias (ix1 c)) (hz _) (hD n).1 (hD n).2

/-- An index word that reads as the node number `n` is not negative, so adding the node count to negative words
    leaves it alone, and clamped into the node range it names row `n`. -/
theorem row_of_landing (hN : 0 < N) (hN31 : N ≤ 2 ^ 31) (b k : BitVec 32) (n : Fin N) (h : b.toInt = (n.val : Int)) :
    rowOf N hN (Scalar.select (IntOp.cmpi .slt b 0#32) (IntOp.addi b k) b) = n := by
  have hslt : IntOp.cmpi .slt b 0#32 = 0#1 := by
    simp only [IntOp.cmpi]
    have : ¬ b.slt 0#32 = true := by
      rw [BitVec.slt]
      simp only [BitVec.toInt_zero, decide_eq_true_eq, not_lt]
      omega
    simp [this]
  rw [hslt, select_zero]
  apply Fin.ext
  show min b.toInt.toNat (N - 1) = n.val
  have := n.isLt
  omega

end Cert.LibGcnPrescale

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«131746_j44220983280095_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibRowMin.lean ====
/-
  Minima along one axis on the extended reals, and the host's one-axis reductions of a matrix read at a row.
  A lane minimum over the second axis of a matrix, read at a row: the fold of `min`, from the value of the
  accumulator's pattern, over that row's entries. A host reduction by minimum or by maximum over the second axis of an
  `[a, b]` matrix, read at row `r`: the fold, from the initial value, over that row's entries. General in the extents.
-/
import Idealize.ShloMosaic.Lib.ValueIdx
import Idealize.ShloMosaic.PureOps.Ideal.Laws

noncomputable section

namespace Cert.LibRowMin

open Idealize.ShloMosaic Idealize.ShloMosaic.ValueIdx

/-- On the extended reals a lane minimum over ONE axis is, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- On the extended reals a lane minimum over the second axis of an `[a, b]` matrix is, at row `r`, the fold of `min`
    from the accumulator's value over that row's entries. -/
theorem multiReduction_minimumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun d => src (ix2 r d)) := by
  refine (multiReduction_minimumf_single src acc h hφ hacc (ix1 r)).trans ?_
  refine congrArg (fun f => (Finset.univ : Finset (Fin b)).fold min (Ideal.ofBits .f32 acc) f) (funext fun d => ?_)
  refine congrArg src (funext fun ax => Fin.ext ?_)
  match ax with
  | ⟨0, _⟩ => rfl
  | ⟨1, _⟩ => rfl

/-- The host's reduction by minimum over the second axis of an `[a, b]` matrix, read at row `r`: the fold of `min` from the
    initial value over that row's entries. -/
theorem hostReduce_minimumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) (fun d => x (ix2 r d)) := by
  refine (Host.reduce_eq_fold_single (FloatOps.minimumf (F := Ideal) (φ := .f32)) x init h' h hu (ix1 r)).trans ?_
  refine congrArg (fun f => (Finset.univ : Finset (Fin b)).fold min (init (Shape.Idx.first hu)) f) (funext fun d => ?_)
  refine congrArg x (funext fun ax => Fin.ext ?_)
  match ax with
  | ⟨0, _⟩ => rfl
  | ⟨1, _⟩ => rfl

/-- The host's reduction by maximum over the second axis of an `[a, b]` matrix, read at row `r`: the fold of `max` from the
    initial value over that row's entries. -/
theorem hostReduce_maximumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

end Cert.LibRowMin

end
-- ==== Proof.Bridge.lean ====
/-
  The kernel program's result and the reference's are one function of the arguments.

  Both programs compute, for every node, the softmax of the second of two normalized graph convolutions with a
  leaky rectifier between them. The reference weighs each edge's message by both endpoints' factors; the kernel
  scales each node's row before its messages leave and each bucket after they arrive. Layer by layer the two
  agree at every entry (the destination's factor, non-negative and finite, comes out of the neighbourhood sum),
  the rectifier and the second product are applied to equal arrays, and the row softmax is the same function of
  equal rows.
-/
import proofs.«131746_j44220983280095_2_alg».proof.Proof.RefReadP
import proofs.«131746_j44220983280095_2_alg».proof.Proof.KernelRun
import proofs.«131746_j44220983280095_2_alg».proof.Proof.LibGcnPrescale
import proofs.«131746_j44220983280095_2_alg».proof.Proof.LibPlainDot
import proofs.«131746_j44220983280095_2_alg».proof.Proof.LibHostRows
import proofs.«131746_j44220983280095_2_alg».proof.Proof.LibRowMin
import proofs.«131746_j44220983280095_2_alg».proof.Proof.LibKeepdims
import Idealize.ShloMosaic.Lib.ValueLayout

set_option maxRecDepth 16384

noncomputable section

open scoped BigOperators

namespace Cert.Bridge

open Idealize.ShloMosaic Idealize.ShloMosaic.ValueIdx Cert.GcnSpec Cert.LibGatherFlatRows
open Cert.KernelIdeal.RunV (agg256 agg16 dcol kernelOut hs2)

variable (x0 : FVec Ideal Cert.KernelIdeal.S50000x512 .f32) (x1 : IVec Cert.KernelIdeal.S2x800000 32) (x2 : FVec Ideal Cert.KernelIdeal.S512x256 .f32)
  (x3 : FVec Ideal Cert.KernelIdeal.S256 .f32) (x4 : FVec Ideal Cert.KernelIdeal.S256x16 .f32) (x5 : FVec Ideal Cert.KernelIdeal.S16 .f32)

theorem hN : 0 < 50000 := by decide
theorem hN31 : 50000 ≤ 2 ^ 31 := by decide

/-! ## The shared prefix: indices and factors -/

/-- Node `r`'s normalization factor. -/
def Dv (r : Fin 50000) : EReal := Cert.ReferenceIdeal.ReadP.val_main_v16 (F := Ideal) x1 (ix1 r)

theorem z256 (i : Cert.KernelIdeal.S50000x256.Idx) : Cert.ReferenceIdeal.ReadP.val_main_v43 (F := Ideal) i = 0 := by
  rw [Cert.ReferenceIdeal.ReadP.val_main_v43_apply, Cert.ReferenceIdeal.ReadP.val_main_cst_9_apply]; exact Ideal.ofBits_zero_f32

theorem z16 (i : Cert.KernelIdeal.S50000x16.Idx) : Cert.ReferenceIdeal.ReadP.val_main_v65 (F := Ideal) i = 0 := by
  rw [Cert.ReferenceIdeal.ReadP.val_main_v65_apply, Cert.ReferenceIdeal.ReadP.val_main_cst_14_apply]; exact Ideal.ofBits_zero_f32

/-- Every factor is non-negative and finite. -/
theorem dv_good (r : Fin 50000) : 0 ≤ Dv x1 r ∧ Dv x1 r ≠ ⊤ := by
  have hz : Cert.ReferenceIdeal.ReadP.val_main_v11 (F := Ideal) (ix1 r) = 0 := by
    rw [Cert.ReferenceIdeal.ReadP.val_main_v11_apply, Cert.ReferenceIdeal.ReadP.val_main_cst_1_apply]; exact Ideal.ofBits_zero_f32
  have hz' : Cert.ReferenceIdeal.ReadP.val_main_call0_v1 (F := Ideal) (ix1 r) = 0 := by
    rw [Cert.ReferenceIdeal.ReadP.val_main_call0_v1_apply, Cert.ReferenceIdeal.ReadP.val_main_call0_v0_apply, Cert.ReferenceIdeal.ReadP.val_main_cst_3_apply]; exact Ideal.ofBits_zero_f32
  unfold Dv
  rw [Cert.ReferenceIdeal.ReadP.val_main_v16_apply, Cert.ReferenceIdeal.ReadP.val_main_v12_apply, Cert.ReferenceIdeal.ReadP.val_main_v15_apply, Cert.ReferenceIdeal.ReadP.val_main_v14_apply]
  simp only [Ideal.cmpf_def, Ideal.hostUnary_rsqrt_def, Ideal.maximumf_def]
  exact Cert.LibGcnLaw.dinv_good _ _ _ _ hz hz'

theorem dcol_at (r : Fin 50000) : dcol x1 (ix2 r (0 : Fin 1)) = Dv x1 r :=
  Cert.LibKeepdims.shapeCast_a_a1_apply _ _ r 0

/-- The three spellings of the source column and the two of the destination column are one array each. -/
theorem src_22_38 : Cert.ReferenceIdeal.ReadP.val_main_v22 (F := Ideal) x1 = Cert.ReferenceIdeal.ReadP.val_main_v38 (F := Ideal) x1 := rfl
theorem src_60_38 : Cert.ReferenceIdeal.ReadP.val_main_v60 (F := Ideal) x1 = Cert.ReferenceIdeal.ReadP.val_main_v38 (F := Ideal) x1 := rfl
theorem dst_66_44 : Cert.ReferenceIdeal.ReadP.val_main_v66 (F := Ideal) x1 = Cert.ReferenceIdeal.ReadP.val_main_v44 (F := Ideal) x1 := rfl

theorem dst_at (e : Fin 850000) :
    Cert.ReferenceIdeal.ReadP.val_main_v44 (F := Ideal) x1 (ix2 e (0 : Fin 1)) = Cert.ReferenceIdeal.ReadP.val_main_v6 (F := Ideal) x1 (ix1 e) := by
  unfold Cert.ReferenceIdeal.ReadP.val_main_v44
  exact Cert.LibHostRows.bcast_a_a1_at _ rfl _ _ e 0

/-- The destination index with the node count added where negative, at an edge. -/
theorem dstN_at (e : Fin 850000) :
    Cert.ReferenceIdeal.ReadP.val_main_v29 (F := Ideal) x1 (ix2 e (0 : Fin 1))
      = Scalar.select (IntOp.cmpi .slt (Cert.ReferenceIdeal.ReadP.val_main_v6 (F := Ideal) x1 (ix1 e)) 0#32)
          (IntOp.addi (Cert.ReferenceIdeal.ReadP.val_main_v6 (F := Ideal) x1 (ix1 e)) 50000#32) (Cert.ReferenceIdeal.ReadP.val_main_v6 (F := Ideal) x1 (ix1 e)) := by
  unfold Cert.ReferenceIdeal.ReadP.val_main_v29
  rw [Cert.LibHostRows.bcast_a_a1_at _ rfl _ _ e 0]
  rw [Cert.ReferenceIdeal.ReadP.val_main_v28_apply, Cert.ReferenceIdeal.ReadP.val_main_v25_apply, Cert.ReferenceIdeal.ReadP.val_main_v27_apply, Cert.ReferenceIdeal.ReadP.val_main_v24_apply,
    Cert.ReferenceIdeal.ReadP.val_main_v26_apply, Cert.ReferenceIdeal.ReadP.val_main_c_5_apply, Cert.ReferenceIdeal.ReadP.val_main_c_6_apply]

/-- An edge's weight is the product of its endpoints' factors; for an edge landing on node `n` the second is `n`'s. -/
theorem nrm_at (e : Fin 850000) (n : Fin 50000)
    (h : (Cert.ReferenceIdeal.ReadP.val_main_v44 (F := Ideal) x1 (ix2 e (0 : Fin 1))).toInt = (n.val : Int)) :
    Cert.ReferenceIdeal.ReadP.val_main_v31 (F := Ideal) x1 (ix1 e)
      = Dv x1 (rowOf 50000 hN (Cert.ReferenceIdeal.ReadP.val_main_v38 (F := Ideal) x1 (ix2 e (0 : Fin 1)))) * Dv x1 n := by
  rw [dst_at] at h
  have a : Cert.ReferenceIdeal.ReadP.val_main_v23 (F := Ideal) x1 (ix1 e)
      = Dv x1 (rowOf 50000 hN (Cert.ReferenceIdeal.ReadP.val_main_v22 (F := Ideal) x1 (ix2 e (0 : Fin 1)))) := by
    unfold Cert.ReferenceIdeal.ReadP.val_main_v23
    exact Cert.LibSegSum.gather_flat_apply hN Cert.ReferenceIdeal.Gen.gather_S50000_S850000x1_S850000_n_0_n_n_0_1_1_wf _ _ e
  have b : Cert.ReferenceIdeal.ReadP.val_main_v30 (F := Ideal) x1 (ix1 e)
      = Dv x1 (rowOf 50000 hN (Cert.ReferenceIdeal.ReadP.val_main_v29 (F := Ideal) x1 (ix2 e (0 : Fin 1)))) := by
    unfold Cert.ReferenceIdeal.ReadP.val_main_v30
    exact Cert.LibSegSum.gather_flat_apply hN Cert.ReferenceIdeal.Gen.gather_S50000_S850000x1_S850000_n_0_n_n_0_1_1_wf _ _ e
  rw [Cert.ReferenceIdeal.ReadP.val_main_v31_apply]
  show Cert.ReferenceIdeal.ReadP.val_main_v23 (F := Ideal) x1 (ix1 e) * Cert.ReferenceIdeal.ReadP.val_main_v30 (F := Ideal) x1 (ix1 e) = _
  rw [a, b, dstN_at, Cert.LibGcnPrescale.row_of_landing hN hN31 _ _ n h, src_22_38]

/-! ## The kernel's aggregations at an entry -/

theorem agg256_at (T : FVec Ideal Cert.KernelIdeal.S50000x256 .f32) (r : Fin 50000) (k : Fin 256) :
    agg256 T x1 (ix2 r k) = Cert.ReferenceIdeal.ReadP.val_main_v43 (F := Ideal) (ix2 r k)
      + ∑ e : Fin 850000, if (Cert.ReferenceIdeal.ReadP.val_main_v44 (F := Ideal) x1 (ix2 e (0 : Fin 1))).toInt = (r.val : Int)
          then T (ix2 (rowOf 50000 hN (Cert.ReferenceIdeal.ReadP.val_main_v38 (F := Ideal) x1 (ix2 e (0 : Fin 1)))) k) else 0 := by
  unfold agg256
  refine (Cert.LibSegSum.scatterAdd_rows_apply Cert.ReferenceIdeal.Gen.scatter_S50000x256_S850000x1_S850000x256_1_0_0_1_wf _ _ _ r k).trans ?_
  refine congrArg (_ + ·) (Finset.sum_congr rfl fun e _ => ?_)
  by_cases h : (Cert.ReferenceIdeal.ReadP.val_main_v44 (F := Ideal) x1 (ix2 e (0 : Fin 1))).toInt = (r.val : Int)
  · rw [if_pos h, if_pos h]
    exact Cert.LibGatherFlatRows.gather_rows_apply hN Cert.ReferenceIdeal.Gen.gather_S50000x256_S850000x1_S850000x256_1_0_n_n_0_1_1256_wf T _ e k
  · rw [if_neg h, if_neg h]

theorem agg16_at (T : FVec Ideal Cert.KernelIdeal.S50000x16 .f32) (r : Fin 50000) (k : Fin 16) :
    agg16 T x1 (ix2 r k) = Cert.ReferenceIdeal.ReadP.val_main_v65 (F := Ideal) (ix2 r k)
      + ∑ e : Fin 850000, if (Cert.ReferenceIdeal.ReadP.val_main_v44 (F := Ideal) x1 (ix2 e (0 : Fin 1))).toInt = (r.val : Int)
          then T (ix2 (rowOf 50000 hN (Cert.ReferenceIdeal.ReadP.val_main_v38 (F := Ideal) x1 (ix2 e (0 : Fin 1)))) k) else 0 := by
  unfold agg16
  rw [dst_66_44, src_60_38]
  refine (Cert.LibSegSum.scatterAdd_rows_apply Cert.ReferenceIdeal.Gen.scatter_S50000x16_S850000x1_S850000x16_1_0_0_1_wf _ _ _ r k).trans ?_
  refine congrArg (_ + ·) (Finset.sum_congr rfl fun e _ => ?_)
  by_cases h : (Cert.ReferenceIdeal.ReadP.val_main_v44 (F := Ideal) x1 (ix2 e (0 : Fin 1))).toInt = (r.val : Int)
  · rw [if_pos h, if_pos h]
    exact Cert.LibGatherFlatRows.gather_rows_apply hN Cert.ReferenceIdeal.Gen.gather_S50000x16_S850000x1_S850000x16_1_0_n_n_0_1_116_wf T _ e k
  · rw [if_neg h, if_neg h]

/-! ## The first layer -/

theorem hT1 (r : Fin 50000) (c : Fin 256) :
    Cert.KernelIdeal.Reg.G0 x0 x2 (dcol x1) (ix2 r c) = Cert.ReferenceIdeal.ReadP.val_main_v32 (F := Ideal) x0 x2 (ix2 r c) * Dv x1 r := by
  show (∑ j : Fin 512, x0 (ix2 r j) * x2 (ix2 j c)) * dcol x1 (ix2 r (0 : Fin 1)) = _
  rw [dcol_at]
  refine congrArg (· * Dv x1 r) ?_
  unfold Cert.ReferenceIdeal.ReadP.val_main_v32
  exact (Cert.LibPlainDot.dotGeneral_apply (a := 50000) (n := 512) (b := 256) none x0 x2 r c).symm

/-- The first layer's pre-activation: the reference's entry is the kernel's. -/
theorem layer1_at (r : Fin 50000) (k : Fin 256) :
    Cert.ReferenceIdeal.ReadP.val_main_v48 (F := Ideal) x0 x1 x2 x3 (ix2 r k)
      = agg256 (Cert.KernelIdeal.Reg.G0 x0 x2 (dcol x1)) x1 (ix2 r k) * dcol x1 (ix2 r (0 : Fin 1))
        + shapeCast Cert.KernelIdeal.S1x256 x3 Cert.KernelIdeal.Gen.shapeCasts_S256_S1x256 (ix2 (0 : Fin 1) k) := by
  have e1 : Cert.ReferenceIdeal.ReadP.val_main_v48 (F := Ideal) x0 x1 x2 x3 (ix2 r k)
      = Cert.LibGcnAgg.aggAt hN (Cert.ReferenceIdeal.ReadP.val_main_v43 (F := Ideal)) (Cert.ReferenceIdeal.ReadP.val_main_v32 (F := Ideal) x0 x2)
          (Cert.ReferenceIdeal.ReadP.val_main_v38 (F := Ideal) x1) (Cert.ReferenceIdeal.ReadP.val_main_v44 (F := Ideal) x1) (Cert.ReferenceIdeal.ReadP.val_main_v31 (F := Ideal) x1) x3 r k :=
    Cert.LibGcnAgg.host_agg_at hN Cert.ReferenceIdeal.Gen.scatter_S50000x256_S850000x1_S850000x256_1_0_0_1_wf
      Cert.ReferenceIdeal.Gen.gather_S50000x256_S850000x1_S850000x256_1_0_n_n_0_1_1256_wf _ _ _ _ _ _
      ![0] rfl Cert.ReferenceIdeal.Gen.bcast_S850000_S850000x1_0 ![0, 1] rfl rfl Cert.ReferenceIdeal.Gen.bcast_S850000x1_S850000x256_0_1
      ![1] rfl Cert.ReferenceIdeal.Gen.bcast_S256_S1x256_1 ![0, 1] rfl rfl Cert.ReferenceIdeal.Gen.bcast_S1x256_S50000x256_0_1 r k
  rw [e1, Cert.LibGcnPrescale.layer_law hN _ _ (Cert.KernelIdeal.Reg.G0 x0 x2 (dcol x1)) _ _ _ _ (Dv x1) z256 (hT1 x0 x1 x2) (dv_good x1)
    (nrm_at x1) r k, agg256_at, dcol_at, shapeCast_a_1a_apply]

/-! ## The rectifier and the second layer -/

theorem leaky_at (r : Fin 50000) (k : Fin 256) :
    Cert.ReferenceIdeal.ReadP.val_main_v53 (F := Ideal) x0 x1 x2 x3 (ix2 r k) = leakyS (Cert.ReferenceIdeal.ReadP.val_main_v48 (F := Ideal) x0 x1 x2 x3 (ix2 r k)) := by
  rw [Cert.ReferenceIdeal.ReadP.val_main_v53_apply, Cert.ReferenceIdeal.ReadP.val_main_v50_apply, Cert.ReferenceIdeal.ReadP.val_main_v52_apply, Cert.ReferenceIdeal.ReadP.val_main_v49_apply,
    Cert.ReferenceIdeal.ReadP.val_main_v51_apply, Cert.ReferenceIdeal.ReadP.val_main_cst_10_apply, Cert.ReferenceIdeal.ReadP.val_main_cst_11_apply]
  rfl

theorem hT2 (r : Fin 50000) (c : Fin 16) :
    hs2 x0 x1 x2 x3 x4 (ix2 r c) = Cert.ReferenceIdeal.ReadP.val_main_v54 (F := Ideal) x0 x1 x2 x3 x4 (ix2 r c) * Dv x1 r := by
  show (∑ k : Fin 256, leakyS (agg256 (Cert.KernelIdeal.Reg.G0 x0 x2 (dcol x1)) x1 (ix2 r k) * dcol x1 (ix2 r (0 : Fin 1))
      + shapeCast Cert.KernelIdeal.S1x256 x3 Cert.KernelIdeal.Gen.shapeCasts_S256_S1x256 (ix2 (0 : Fin 1) k)) * x4 (ix2 k c)) * dcol x1 (ix2 r (0 : Fin 1)) = _
  have hd : Cert.ReferenceIdeal.ReadP.val_main_v54 (F := Ideal) x0 x1 x2 x3 x4 (ix2 r c)
      = ∑ k : Fin 256, Cert.ReferenceIdeal.ReadP.val_main_v53 (F := Ideal) x0 x1 x2 x3 (ix2 r k) * x4 (ix2 k c) :=
    Cert.LibPlainDot.dotGeneral_apply (a := 50000) (n := 256) (b := 16) none (Cert.ReferenceIdeal.ReadP.val_main_v53 (F := Ideal) x0 x1 x2 x3) x4 r c
  have hk : ∀ k : Fin 256, leakyS (agg256 (Cert.KernelIdeal.Reg.G0 x0 x2 (dcol x1)) x1 (ix2 r k) * Dv x1 r
      + shapeCast Cert.KernelIdeal.S1x256 x3 Cert.KernelIdeal.Gen.shapeCasts_S256_S1x256 (ix2 (0 : Fin 1) k))
      = Cert.ReferenceIdeal.ReadP.val_main_v53 (F := Ideal) x0 x1 x2 x3 (ix2 r k) := fun k => by
    rw [leaky_at, layer1_at, dcol_at]
  rw [hd, dcol_at]
  simp only [hk]

/-- The second layer's logits: the reference's entry is the kernel's. -/
theorem layer2_at (r : Fin 50000) (q : Fin 16) :
    Cert.ReferenceIdeal.ReadP.val_main_v70 (F := Ideal) x0 x1 x2 x3 x4 x5 (ix2 r q)
      = agg16 (hs2 x0 x1 x2 x3 x4) x1 (ix2 r q) * dcol x1 (ix2 r (0 : Fin 1))
        + shapeCast Cert.KernelIdeal.S1x16 x5 Cert.KernelIdeal.Gen.shapeCasts_S16_S1x16 (ix2 (0 : Fin 1) q) := by
  have e1 : Cert.ReferenceIdeal.ReadP.val_main_v70 (F := Ideal) x0 x1 x2 x3 x4 x5 (ix2 r q)
      = Cert.LibGcnAgg.aggAt hN (Cert.ReferenceIdeal.ReadP.val_main_v65 (F := Ideal)) (Cert.ReferenceIdeal.ReadP.val_main_v54 (F := Ideal) x0 x1 x2 x3 x4)
          (Cert.ReferenceIdeal.ReadP.val_main_v38 (F := Ideal) x1) (Cert.ReferenceIdeal.ReadP.val_main_v44 (F := Ideal) x1) (Cert.ReferenceIdeal.ReadP.val_main_v31 (F := Ideal) x1) x5 r q :=
    Cert.LibGcnAgg.host_agg_at hN Cert.ReferenceIdeal.Gen.scatter_S50000x16_S850000x1_S850000x16_1_0_0_1_wf
      Cert.ReferenceIdeal.Gen.gather_S50000x16_S850000x1_S850000x16_1_0_n_n_0_1_116_wf _ _ _ _ _ _
      ![0] rfl Cert.ReferenceIdeal.Gen.bcast_S850000_S850000x1_0 ![0, 1] rfl rfl Cert.ReferenceIdeal.Gen.bcast_S850000x1_S850000x16_0_1
      ![1] rfl Cert.ReferenceIdeal.Gen.bcast_S16_S1x16_1 ![0, 1] rfl rfl Cert.ReferenceIdeal.Gen.bcast_S1x16_S50000x16_0_1 r q
  rw [e1, Cert.LibGcnPrescale.layer_law hN _ _ (hs2 x0 x1 x2 x3 x4) _ _ _ _ (Dv x1) z16 (hT2 x0 x1 x2 x3 x4) (dv_good x1)
    (nrm_at x1) r q, agg16_at, dcol_at, shapeCast_a_1a_apply]

/-! ## The softmax head -/

theorem reduces16 : (⟨2, ![50000, 16]⟩ : Shape).Reduces [1] ⟨1, ![50000]⟩ := by decide

/-- The reference's result at an entry is the softmax of its row of logits. -/
theorem ref_out (r : Fin 50000) (q : Fin 16) :
    Cert.ReferenceIdeal.ReadP.val_main_v81 (F := Ideal) x0 x1 x2 x3 x4 x5 (ix2 r q)
      = smRow (fun q' : Fin 16 => Cert.ReferenceIdeal.ReadP.val_main_v70 (F := Ideal) x0 x1 x2 x3 x4 x5 (ix2 r q')) q := by
  have hmax : Cert.ReferenceIdeal.ReadP.val_main_v73 (F := Ideal) x0 x1 x2 x3 x4 x5 (ix1 r)
      = rowTop (fun q' : Fin 16 => Cert.ReferenceIdeal.ReadP.val_main_v70 (F := Ideal) x0 x1 x2 x3 x4 x5 (ix2 r q')) := by
    rw [Cert.ReferenceIdeal.ReadP.val_main_v73_apply, Cert.ReferenceIdeal.ReadP.val_main_v72_apply, Cert.ReferenceIdeal.ReadP.val_main_cst_16_apply]
    unfold Cert.ReferenceIdeal.ReadP.val_main_v71
    refine (congrArg (max _) (Cert.LibRowMin.hostReduce_maximumf_rows (a := 50000) (b := 16) _ _
      Cert.ReferenceIdeal.Gen.reducesTo_S50000x16_S50000_d1 reduces16 Cert.ReferenceIdeal.Gen.h_S_ r)).trans ?_
    rfl
  have hexp : ∀ q' : Fin 16, Cert.ReferenceIdeal.ReadP.val_main_v77 (F := Ideal) x0 x1 x2 x3 x4 x5 (ix2 r q')
      = Ideal.exp (Cert.ReferenceIdeal.ReadP.val_main_v70 (F := Ideal) x0 x1 x2 x3 x4 x5 (ix2 r q')
          - rowTop (fun q'' : Fin 16 => Cert.ReferenceIdeal.ReadP.val_main_v70 (F := Ideal) x0 x1 x2 x3 x4 x5 (ix2 r q''))) := fun q' => by
    rw [Cert.ReferenceIdeal.ReadP.val_main_v77_apply, Cert.ReferenceIdeal.ReadP.val_main_v76_apply]
    have h75 : Cert.ReferenceIdeal.ReadP.val_main_v75 (F := Ideal) x0 x1 x2 x3 x4 x5 (ix2 r q') = Cert.ReferenceIdeal.ReadP.val_main_v73 (F := Ideal) x0 x1 x2 x3 x4 x5 (ix1 r) := by
      unfold Cert.ReferenceIdeal.ReadP.val_main_v75 Cert.ReferenceIdeal.ReadP.val_main_v74
      rw [Cert.LibHostRows.bcast_a1_ab_at _ rfl rfl, Cert.LibHostRows.bcast_a_a1_at _ rfl]
    rw [h75, hmax]
    simp only [Ideal.hostUnary_exp_def, Ideal.subf_def]
  have hsum : Cert.ReferenceIdeal.ReadP.val_main_v80 (F := Ideal) x0 x1 x2 x3 x4 x5 (ix2 r q)
      = ∑ q' : Fin 16, Ideal.exp (Cert.ReferenceIdeal.ReadP.val_main_v70 (F := Ideal) x0 x1 x2 x3 x4 x5 (ix2 r q')
          - rowTop (fun q'' : Fin 16 => Cert.ReferenceIdeal.ReadP.val_main_v70 (F := Ideal) x0 x1 x2 x3 x4 x5 (ix2 r q''))) := by
    unfold Cert.ReferenceIdeal.ReadP.val_main_v80 Cert.ReferenceIdeal.ReadP.val_main_v79
    rw [Cert.LibHostRows.bcast_a1_ab_at _ rfl rfl, Cert.LibHostRows.bcast_a_a1_at _ rfl]
    unfold Cert.ReferenceIdeal.ReadP.val_main_v78
    refine (Cert.LibHostRows.hostReduceAdd_rows (a := 50000) (b := 16) _ _ Cert.ReferenceIdeal.Gen.reducesTo_S50000x16_S50000_d1 reduces16
      Cert.ReferenceIdeal.Gen.h_S_ r).trans ?_
    rw [Cert.ReferenceIdeal.ReadP.val_main_cst_17_apply]
    refine (congrArg (· + _) Ideal.ofBits_zero_f32).trans ?_
    rw [zero_add]
    exact Finset.sum_congr rfl fun q' _ => hexp q'
  rw [Cert.ReferenceIdeal.ReadP.val_main_v81_apply, hexp, hsum]
  unfold smRow
  simp only [Ideal.hostDivf_def]

/-! ## The two results -/

/-- The kernel program's result is the reference's last stage, as functions of the six arguments. -/
theorem bridge : kernelOut x0 x1 x2 x3 x4 x5 = Cert.ReferenceIdeal.ReadP.val_main_v81 (F := Ideal) x0 x1 x2 x3 x4 x5 := by
  funext i
  obtain ⟨r, q, rfl⟩ : ∃ (r : Fin 50000) (q : Fin 16), i = ix2 r q := ⟨i 0, i 1, eq_ix2 i⟩
  rw [ref_out]
  show smRow (fun q' : Fin 16 => agg16 (hs2 x0 x1 x2 x3 x4) x1 (ix2 r q') * dcol x1 (ix2 r (0 : Fin 1))
      + shapeCast Cert.KernelIdeal.S1x16 x5 Cert.KernelIdeal.Gen.shapeCasts_S16_S1x16 (ix2 (0 : Fin 1) q')) q = _
  refine congrArg (fun f => smRow f q) (funext fun q' => ?_)
  exact (layer2_at x0 x1 x2 x3 x4 x5 r q').symm

end Cert.Bridge

end
-- ==== Proof.lean ====
/-
  The certificate of a two-layer graph convolution with a softmax head: a program of three kernel launches among
  host gathers and scatters, against the plain array program it was written from.

  The three frames: both kernel programs run to the end without a fault and leave their arguments as launched (the
  launches' bodies store whole blocks through literal rectangles and the host operations touch no argument), and the
  reference, a straight line of host operations, does so too. The kernel's idealization rewrites nothing, so there is
  nothing to preserve. The two idealized programs end with equal results: the kernel's result array is the softmax
  launch of the second aggregation of the second launch of the first aggregation of the first launch (read off the run
  launch by launch), the reference's is its last stage, and the two are one function of the six arguments because the
  destination node's normalization factor, non-negative and finite, comes out of each neighbourhood sum.
-/
import proofs.«131746_j44220983280095_2_alg».proof.Defs
import proofs.«131746_j44220983280095_2_alg».proof.Proof.Gen.Kernel
import proofs.«131746_j44220983280095_2_alg».proof.Proof.Gen.Kernel.Skeleton
import proofs.«131746_j44220983280095_2_alg».proof.Proof.Gen.Kernel.Launch
import proofs.«131746_j44220983280095_2_alg».proof.Proof.Gen.Kernel.Points
import proofs.«131746_j44220983280095_2_alg».proof.Proof.Gen.Kernel.Frame
import proofs.«131746_j44220983280095_2_alg».proof.Proof.Gen.KernelIdeal
import proofs.«131746_j44220983280095_2_alg».proof.Proof.Gen.KernelIdeal.Skeleton
import proofs.«131746_j44220983280095_2_alg».proof.Proof.Gen.KernelIdeal.Launch
import proofs.«131746_j44220983280095_2_alg».proof.Proof.Gen.KernelIdeal.Points
import proofs.«131746_j44220983280095_2_alg».proof.Proof.Gen.KernelIdeal.Frame
import proofs.«131746_j44220983280095_2_alg».proof.Proof.Gen.ReferenceIdeal
import proofs.«131746_j44220983280095_2_alg».proof.Proof.Gen.Pre_finite_inputs
import proofs.«131746_j44220983280095_2_alg».proof.Proof.RefRunP
import proofs.«131746_j44220983280095_2_alg».proof.Proof.RefReadP
import proofs.«131746_j44220983280095_2_alg».proof.Proof.KernelRun
import proofs.«131746_j44220983280095_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end with the same result array: the
    kernel's run ends at `kernelOut` of the arguments, the reference's at its last stage, and the two are equal. -/
theorem algebraic : Cert.algebraic_KernelIdeal_ReferenceIdeal := by
  intro m ρ m' ρ' _ hagree
  refine ⟨fun c => Cert.KernelIdeal.RunV.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.RunV.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, (hagree c).1, (hagree c).2.1, (hagree c).2.2.1, (hagree c).2.2.2.1,
    (hagree c).2.2.2.2.1, (hagree c).2.2.2.2.2]
  exact (Cert.Bridge.bridge _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
